-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x128 : Shape := ⟨2, ![25000, 128]⟩
abbrev S128x128 : Shape := ⟨2, ![128, 128]⟩
abbrev S800000 : Shape := ⟨1, ![800000]⟩
abbrev S_ : Shape := ⟨0, ![]⟩

class Facts : Prop where
  bcast_S_S25000x128 : S_.BroadcastsInDim S25000x128 (![] : Fin 0 → Fin S25000x128.rank)
  reducesTo_S25000x128_S_d0_1 : S25000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S25000x128 .f32) (main_arg1 : FVec F S25000x128 .f32) (main_arg2 : FVec F S128x128 .f32) (main_arg3 : FVec F S128x128 .f32) (main_arg4 : IVec S800000 32) (main_arg5 : IVec S800000 32) : IVec S_ 1 :=
  let main_v0 : FVec F S25000x128 .f32 := Host.absf main_arg0
  let main_cst : FVec F S_ .f32 := constant S_ .f32 0x7F800000#32
  let main_v1 : FVec F S25000x128 .f32 := broadcastInDim S25000x128 ![] bcast_S_S25000x128 main_cst
  let main_v2 : IVec S25000x128 1 := cmpf .olt main_v0 main_v1
  let main_c : IVec S_ 1 := constantI S_ 1 1#1
  let main_v3 : IVec S_ 1 := (fun x v => Host.reduce IntOp.andi x v reducesTo_S25000x128_S_d0_1 h_S_) main_v2 main_c
  let main_v4 : FVec F S25000x128 .f32 := Host.absf main_arg1
  let main_cst_0 : FVec F S_ .f32 := constant S_ .f32 0x7F800000#32
  let main_v5 : FVec F S25000x128 .f32 := broadcastInDim S25000x128 ![] bcast_S_S25000x128 main_cst_0
  let main_v6 : IVec S25000x128 1 := cmpf .olt main_v4 main_v5
  let main_c_1 : IVec S_ 1 := constantI S_ 1 1#1
  let main_v7 : IVec S_ 1 := (fun x v => Host.reduce IntOp.andi x v reducesTo_S25000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S25000x128 : Shape := ⟨2, ![25000, 128]⟩
abbrev S128x128 : Shape := ⟨2, ![128, 128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x128 : Shape := ⟨3, ![1, 128, 128]⟩
abbrev S2x128x128 : Shape := ⟨3, ![2, 128, 128]⟩
abbrev S50000x128 : Shape := ⟨2, ![50000, 128]⟩
abbrev S5000x128 : Shape := ⟨2, ![5000, 128]⟩
abbrev S5000x1 : Shape := ⟨2, ![5000, 1]⟩
abbrev S800000x128 : Shape := ⟨2, ![800000, 128]⟩

abbrev nBuf : Space → Nat
  | .hbm => 39
  | .vmem => 10
  | .smem => 0
  | _ => 0

abbrev bufTy : (tb : Table) → Fin (tcTables nBuf tb) → BufTy
  | .hbm, ⟨0, _⟩ => ⟨S25000x128, .f32⟩
  | .hbm, ⟨1, _⟩ => ⟨S25000x128, .f32⟩
  | .hbm, ⟨2, _⟩ => ⟨S128x128, .f32⟩
  | .hbm, ⟨3, _⟩ => ⟨S128x128, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S1x128x128, .f32⟩
  | .hbm, ⟨21, _⟩ => ⟨S1x128x128, .f32⟩
  | .hbm, ⟨22, _⟩ => ⟨S2x128x128, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x128x128, .f32⟩
  | .local _ .vmem, ⟨5, _⟩ => ⟨S1x128x128, .f32⟩
  | .local _ .vmem, ⟨6, _⟩ => ⟨S5000x1, .f32⟩
  | .local _ .vmem, ⟨7, _⟩ => ⟨S5000x1, .f32⟩
  | .local _ .vmem, ⟨8, _⟩ => ⟨S5000x128, .f32⟩
  | .local _ .vmem, ⟨9, _⟩ => ⟨S5000x128, .f32⟩
  | _, _ => ⟨S25000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S128x128_S1x128x128_1_2 : S128x128.BroadcastsInDim S1x128x128 (![1, 2] : Fin 2 → Fin S1x128x128.rank)
  concatenates_S1x128x128_S1x128x128_S2x128x128_d0 : Shape.Concatenates [S1x128x128, S1x128x128] S2x128x128 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S25000x128 : Shape := ⟨2, ![25000, 128]⟩
abbrev S128x128 : Shape := ⟨2, ![128, 128]⟩
abbrev S800000 : Shape := ⟨1, ![800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩

abbrev nBuf : Space → Nat
  | .hbm => 41
  | .vmem => 0
  | .smem => 0
  | _ => 0

abbrev bufTy : (tb : Table) → Fin (tcTables nBuf tb) → BufTy
  | .hbm, ⟨0, _⟩ => ⟨S25000x128, .f32⟩
  | .hbm, ⟨1, _⟩ => ⟨S25000x128, .f32⟩
  | .hbm, ⟨2, _⟩ => ⟨S128x128, .f32⟩
  | .hbm, ⟨3, _⟩ => ⟨S128x128, .f32⟩
  | .hbm, ⟨4, _⟩ => ⟨S800000, .i32⟩
  | .hbm, ⟨5, _⟩ => ⟨S800000, .i32⟩
  | .hbm, ⟨6, _⟩ => ⟨S25000x128, .f32⟩
  | .hbm, ⟨7, _⟩ => ⟨S25000x128, .f32⟩
  | .hbm, ⟨8, _⟩ => ⟨S50000x128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x128, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x1, .f32⟩
  | .hbm, ⟨39, _⟩ => ⟨S50000x128, .f32⟩
  | .hbm, ⟨40, _⟩ => ⟨S50000x128, .f32⟩
  | _, _ => ⟨S25000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  concatenates_S25000x128_S25000x128_S50000x128_d0 : Shape.Concatenates [S25000x128, S25000x128] S50000x128 0
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  dot_S25000x128_S128x128_S25000x128_1_0_0_1_n_n_wf : DotDims.WF S25000x128 S128x128 S25000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.SharedTail.lean ====
/-
  What both programs do around the projected node features, as named functions of the arrays.

  * `degNorm rows`: a node's scaling factor. Each edge adds 1 to its row node's bucket (a scatter-add of ones into
    zeros), the count is floored at 1, and the factor is that number to the power −1/2.
  * `tail P col rows cols`: the message passing after the projection `P`. Negative column ids are wrapped by adding
    50000, row `cols e` of `P` is gathered for every edge `e`, the gathered rows are scatter-added into zeros at the
    edges' row nodes, and each node's sum is scaled by its factor, carried as a [50000, 1] column `col`.
  * the column itself is spelt in two ways — the factors reshaped to [50000, 1], or broadcast to [50000, 1] along their
    own axis — and the two spellings are the same array: entry (r, 0) is the factor of node `r`.

  The gather and the two scatter-adds are never opened: both programs apply the same ones to the same index arrays, so
  they are equal as soon as their operands are.
-/
import proofs.«149264_j18502719111841_2_alg».proof.Proof.Gen.KernelIdeal
import proofs.«149264_j18502719111841_2_alg».proof.Proof.LibColumns
import Idealize.ShloMosaic.Lib.ValueIdx
import Idealize.ShloMosaic.Lib.Pipeline.Value

noncomputable section

namespace Cert.Shared

open Idealize.ShloMosaic Idealize.ShloMosaic.ValueIdx Cert.KernelIdeal Cert.KernelIdeal.Gen

variable {F : FTy → Type} [FloatOps F]

/-- A node's scaling factor from the edges' row nodes: (max 1 (number of edges at the node)) ^ (−1/2). -/
def degNorm (rows : (⟨S800000, .i32⟩ : BufTy).Contents (Elt F)) : (⟨S50000, .f32⟩ : BufTy).Contents (Elt F) :=
  Host.powf (F := F)
    (maximumf (F := F) (broadcastInDim S50000 ![] bcast_S_S50000 (id (constant (F := F) S_ .f32 0x3F800000#32)))
      (Host.scatterAdd (F := F) scatter_S50000_S800000x1_S800000_n_0_0_1 (broadcastInDim S50000 ![] bcast_S_S50000 (constant (F := F) S_ .f32 0x00000000#32))
        (broadcastInDim S800000x1 ![0] bcast_S800000_S800000x1_0 rows)
        (broadcastInDim S800000 ![] bcast_S_S800000 (constant (F := F) S_ .f32 0x3F800000#32))))
    (broadcastInDim S50000 ![] bcast_S_S50000 (constant (F := F) S_ .f32 0xBF000000#32))

/-- The message passing after the projection: gather the column nodes' rows, sum them at the row nodes, scale by the column of factors. -/
def tail (P : (⟨S50000x128, .f32⟩ : BufTy).Contents (Elt F)) (col : (⟨S50000x1, .f32⟩ : BufTy).Contents (Elt F))
    (rows cols : (⟨S800000, .i32⟩ : BufTy).Contents (Elt F)) : (⟨S50000x128, .f32⟩ : BufTy).Contents (Elt F) :=
  mulf (F := F)
    (Host.scatterAdd (F := F) scatter_S50000x128_S800000x1_S800000x128_1_0_0_1
      (broadcastInDim S50000x128 ![] bcast_S_S50000x128 (constant (F := F) S_ .f32 0x00000000#32))
      (broadcastInDim S800000x1 ![0] bcast_S800000_S800000x1_0 rows)
      (Host.gather gather_S50000x128_S800000x1_S800000x128_1_0_n_n_0_1_1128 P
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))
    (broadcastInDim S50000x128 ![0, 1] bcast_S50000x1_S50000x128_0_1 col)

theorem bcast_col : S50000.BroadcastsInDim S50000x1 (![0] : Fin 1 → Fin S50000x1.rank) := by decide

/-- The factors as a column, by a reshape. -/
def colReshape (d : (⟨S50000, .f32⟩ : BufTy).Contents (Elt F)) : (⟨S50000x1, .f32⟩ : BufTy).Contents (Elt F) :=
  shapeCast S50000x1 d shapeCasts_S50000_S50000x1

/-- The factors as a column, by a broadcast along their own axis. -/
def colBroadcast (d : (⟨S50000, .f32⟩ : BufTy).Contents (Elt F)) : (⟨S50000x1, .f32⟩ : BufTy).Contents (Elt F) :=
  broadcastInDim S50000x1 ![0] bcast_col d

theorem colReshape_apply (d : (⟨S50000, .f32⟩ : BufTy).Contents (Elt F)) (r : Fin 50000) (u : Fin 1) :
    colReshape d (ix2 r u) = d (ix1 r) :=
  Cert.Columns.shapeCast_a_a1_apply d shapeCasts_S50000_S50000x1 r u

theorem colBroadcast_apply (d : (⟨S50000, .f32⟩ : BufTy).Contents (Elt F)) (r : Fin 50000) (u : Fin 1) :
    colBroadcast d (ix2 r u) = d (ix1 r) := by
  unfold colBroadcast
  exact broadcastInDim_apply ![0] bcast_col d (ix2 r u) (ix1 r) (fun a => by
    match a with
    | ⟨0, _⟩ => show r.val = if (50000 : Nat) = 1 then 0 else r.val; rw [if_neg (by decide)])

/-- The two spellings of the column are one array. -/
theorem colReshape_eq_colBroadcast (d : (⟨S50000, .f32⟩ : BufTy).Contents (Elt F)) : colReshape d = colBroadcast d := by
  funext i
  obtain ⟨r, u, rfl⟩ : ∃ (r : Fin 50000) (u : Fin 1), i = ix2 r u := ⟨i 0, i 1, eq_ix2 i⟩
  rw [colReshape_apply, colBroadcast_apply]

end Cert.Shared

end
-- ==== Proof.RegionInputs.lean ====
/-
  What the kernel's region finds in the two arrays the host wrote before it.

  * The fourth operand is the column of scaling factors: the shared factors `degNorm rows`, reshaped to [50000, 1].
  * The third operand is the two weight matrices stacked along a new leading axis: each is broadcast to [1, 128, 128]
    and the two are concatenated along axis 0, so plane `b` of the [2, 128, 128] array is the first matrix for `b = 0`
    and the second for `b = 1`.
  Both are read off the host operations before the region, for any float values.
-/
import proofs.«149264_j18502719111841_2_alg».proof.Proof.FrameKernelIdeal
import proofs.«149264_j18502719111841_2_alg».proof.Proof.SharedTail
import Idealize.ShloMosaic.Lib.StableHlo.Run
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Idealize.SL.Sem Idealize.ShloMosaic.StableHlo
open Cert.KernelIdeal Cert.KernelIdeal.Gen Cert.KernelIdeal.GenP

variable {F : FTy → Type} [FloatOps F]
variable (m : (ℓ : Loc nD τ sig) → Buf (Elt F) ℓ)

/-- Two 128 × 128 matrices stacked along a new leading axis. -/
def stackWeights (w0 w1 : (⟨S128x128, .f32⟩ : BufTy).Contents (Elt F)) : (⟨S2x128x128, .f32⟩ : BufTy).Contents (Elt F) :=
  concatenate S2x128x128 0
    [⟨S1x128x128, broadcastInDim S1x128x128 ![1, 2] bcast_S128x128_S1x128x128_1_2 w0⟩,
     ⟨S1x128x128, broadcastInDim S1x128x128 ![1, 2] bcast_S128x128_S1x128x128_1_2 w1⟩]
    concatenates_S1x128x128_S1x128x128_S2x128x128_d0

/-- The region finds the column of factors in its fourth operand's array. -/
theorem V_col (c : Dev nD) :
    V m c main_v7 = Cert.Shared.colReshape (Cert.Shared.degNorm (m ((c : Thread nD τ).loc main_arg4))) := by
  unfold Cert.Shared.colReshape Cert.Shared.degNorm
  dsimp only [V, V0]
  simp only [hostOps0, hostOps0_1, hostOps0_2, List.flatten_cons, List.flatten_nil, List.append_nil, List.cons_append, List.nil_append]
  after_results
  rfl

/-- The region finds the stacked weights in its third operand's array. -/
theorem V_weights (c : Dev nD) :
    V m c main_v10 = stackWeights (m ((c : Thread nD τ).loc main_arg2)) (m ((c : Thread nD τ).loc main_arg3)) := by
  unfold stackWeights
  dsimp only [V, V0]
  simp only [hostOps0, hostOps0_1, hostOps0_2, List.flatten_cons, List.flatten_nil, List.append_nil, List.cons_append, List.nil_append]
  after_results

/-- Plane `b` of the stack is the first matrix for `b = 0` and the second otherwise. -/
theorem stackWeights_apply (w0 w1 : (⟨S128x128, .f32⟩ : BufTy).Contents (Elt F)) (b : Fin 2) (k q : Fin 128) :
    stackWeights w0 w1 (ix3 b k q) = (if b.val = 0 then w0 else w1) (ix2 k q) := by
  unfold stackWeights
  have hplane : ∀ (w : (⟨S128x128, .f32⟩ : BufTy).Contents (Elt F)),
      broadcastInDim S1x128x128 ![1, 2] bcast_S128x128_S1x128x128_1_2 w (ix3 (0 : Fin 1) k q) = w (ix2 k q) := fun w =>
    broadcastInDim_apply ![1, 2] bcast_S128x128_S1x128x128_1_2 w (ix3 (0 : Fin 1) k q) (ix2 k q) (fun a => by
      match a with
      | ⟨0, _⟩ => show k.val = if (128 : Nat) = 1 then 0 else k.val; rw [if_neg (by decide)]
      | ⟨1, _⟩ => show q.val = if (128 : Nat) = 1 then 0 else q.val; rw [if_neg (by decide)])
  by_cases h : b.val = 0
  · rw [if_pos h, concatenate_pair_apply_left (t := S2x128x128) (s₁ := S1x128x128) (s₂ := S1x128x128) (0 : Fin 3) _ _
      concatenates_S1x128x128_S1x128x128_S2x128x128_d0 (ix3 b k q) rfl (ix3 (0 : Fin 1) k q)
      (fun a => by
        match a with
        | ⟨0, _⟩ => exact h.symm
        | ⟨1, _⟩ => rfl
        | ⟨2, _⟩ => rfl), hplane]
  · have h1 : b.val = 1 := by have := b.isLt; omega
    rw [if_neg h, concatenate_pair_apply_right (t := S2x128x128) (s₁ := S1x128x128) (s₂ := S1x128x128) (0 : Fin 3) _ _
      concatenates_S1x128x128_S1x128x128_S2x128x128_d0 (ix3 b k q) rfl rfl (ix3 (0 : Fin 1) k q)
      (fun a ha => by
        match a with
        | ⟨0, _⟩ => exact absurd rfl ha
        | ⟨1, _⟩ => rfl
        | ⟨2, _⟩ => rfl)
      (by show 0 + 1 = b.val; omega), hplane]

end Cert.KernelIdeal.Region

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.BlockEntry.lean ====
/-
  One grid point's arithmetic at an entry.

  At a grid point the body holds a 5000-row block of each feature matrix, one 128 × 128 weight matrix (as a
  [1, 128, 128] block), and the block's 5000 scaling factors as a column. It picks one of the two feature blocks by
  comparing the grid coordinate with 5, rounds it and the weights to bfloat16 (the identity on the extended reals),
  multiplies them into a zero accumulator and scales each row by its factor. So entry (p, c) of what it stores is

      (∑ k, picked (p, k) · weight (0, k, c)) · factor (p, 0).
-/
import proofs.«149264_j18502719111841_2_alg».proof.Proof.Gen.KernelIdeal.Skeleton
import proofs.«149264_j18502719111841_2_alg».proof.Proof.LibMlpRows
import proofs.«149264_j18502719111841_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen
open scoped BigOperators

/-- The body's matrix product has the plain dimension numbers: rows × contraction times contraction × columns. -/
theorem dot_plain : dot_S5000x128_S128x128_S5000x128_1_0_0_1_n_n = DotDims.plain 5000 128 128 := rfl

/-- The [1, 128, 128] weight block read as a 128 × 128 matrix: entry (k, c) is entry (0, k, c). -/
theorem weight_cast (x2 : Vec Ideal S1x128x128 .f32) (k c : Fin 128) :
    shapeCast S128x128 x2 shapeCasts_S1x128x128_S128x128 (ix2 k c) = x2 (ix3 (0 : Fin 1) k c) :=
  shapeCast_apply x2 shapeCasts_S1x128x128_S128x128 _ _ (by
    rw [Shape.rowMajor_val_two, Shape.rowMajor_val_three]
    show (0 * 128 + k.val) * 128 + c.val = k.val * 128 + c.val
    omega)

/-- What the body stores, at entry (p, c). -/
theorem pay_entry (i : grid0.Coords) (x0 x1 : Vec Ideal S5000x128 .f32) (x2 : Vec Ideal S1x128x128 .f32) (x3 : Vec Ideal S5000x1 .f32)
    (p : Fin 5000) (c : Fin 128) :
    k0_pay1 (F := Ideal) i x0 x1 x2 x3 (ix2 p c)
      = (∑ k : Fin 128, (Scalar.select (Scalar.cmpi .slt (BitVec.ofNat 32 (i 0).val) 5#32) x0 x1) (ix2 p k) * x2 (ix3 (0 : Fin 1) k c))
          * x3 (ix2 p (0 : Fin 1)) := by
  unfold k0_pay1
  dsimp only
  rw [mulf_apply, Cert.Columns.broadcastTo_a1_ab_apply, shapeCast_self, dot_plain]
  simp only [matmul]
  rw [Cert.LibMlp.matmul_zero_plain]
  simp only [truncf_apply]
  refine congrArg (· * x3 (ix2 p (0 : Fin 1))) (Finset.sum_congr rfl fun k _ => ?_)
  exact congrArg (_ * ·) (weight_cast x2 k c)

end Cert.KernelIdeal.Block

end
-- ==== Proof.BlockReads.lean ====
/-
  Which part of its array each window's block is, at each of the ten grid points.

  The index maps are decided once over the grid: the first feature matrix's block index is `min t 4`, the second's
  `max (t − 5) 0`, the weight stack's plane `t / 5`, the factor column's and the output's block `t`; and the body's
  comparison of the grid coordinate with 5 is true exactly for `t < 5`. An entry of a block sits in its array at
  block index × block size + its coordinate, on every axis. These facts hold for any float values.
-/
import proofs.«149264_j18502719111841_2_alg».proof.Proof.FrameKernelIdeal
import proofs.«149264_j18502719111841_2_alg».proof.Proof.RegionInputs
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.GenP

/-- The printed index maps and the body's comparison, decided over the ten grid points. -/
theorem grid_facts : ∀ t : Fin cfg0.N,
    (t.val < 5 → win0_0.index t (0 : Fin 2) = t.val) ∧ win0_0.index t (1 : Fin 2) = 0
    ∧ (5 ≤ t.val → win0_1.index t (0 : Fin 2) + 5 = t.val) ∧ win0_1.index t (1 : Fin 2) = 0
    ∧ (t.val < 5 → win0_2.index t (0 : Fin 3) = 0) ∧ (5 ≤ t.val → win0_2.index t (0 : Fin 3) = 1)
    ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0
    ∧ Scalar.cmpi .slt (BitVec.ofNat 32 ((grid0.coords t) 0).val) 5#32 = (if t.val < 5 then 1#1 else 0#1) :=
  (by decide +kernel : ∀ t : Fin grid0.N, _)

variable {F : FTy → Type} [FloatOps F]
variable (m : (ℓ : Loc nD τ sig) → Buf (Elt F) ℓ)

/-! ## Each window's block at a point, read where the array has it -/

/-- Row `p` of the first feature matrix's block is row `index·5000 + p` of the matrix. -/
theorem feat0_read (c : Dev nD) (t : Fin cfg0.N) (p : Fin 5000) (k : Fin 128) (r : Fin 25000)
    (hr : r.val = win0_0.index t (0 : Fin 2) * 5000 + p.val) (h1 : win0_0.index t (1 : Fin 2) = 0) :
    (iblk m c 0 t : Vec F S5000x128 .f32) (ix2 p k) = (m ((c : Thread nD τ).loc main_arg0) : S25000x128.Idx → Elt F .f32) (ix2 r k) := by
  unfold iblk
  rw [View.read_apply]
  show V m c main_arg0 _ = _
  rw [V_main_arg0]
  refine congrArg (m ((c : Thread nD τ).loc main_arg0) : S25000x128.Idx → Elt F .f32) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The same for the second feature matrix. -/
theorem feat1_read (c : Dev nD) (t : Fin cfg0.N) (p : Fin 5000) (k : Fin 128) (r : Fin 25000)
    (hr : r.val = win0_1.index t (0 : Fin 2) * 5000 + p.val) (h1 : win0_1.index t (1 : Fin 2) = 0) :
    (iblk m c 1 t : Vec F S5000x128 .f32) (ix2 p k) = (m ((c : Thread nD τ).loc main_arg1) : S25000x128.Idx → Elt F .f32) (ix2 r k) := by
  unfold iblk
  rw [View.read_apply]
  show V m c main_arg1 _ = _
  rw [V_main_arg1]
  refine congrArg (m ((c : Thread nD τ).loc main_arg1) : S25000x128.Idx → Elt F .f32) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The weight block at a point is one plane of the stack. -/
theorem weight_read (c : Dev nD) (t : Fin cfg0.N) (k q : Fin 128) (b : Fin 2)
    (hb : win0_2.index t (0 : Fin 3) = b.val) (h1 : win0_2.index t (1 : Fin 3) = 0) (h2 : win0_2.index t (2 : Fin 3) = 0) :
    (iblk m c 2 t : Vec F S1x128x128 .f32) (ix3 (0 : Fin 1) k q)
      = (if b.val = 0 then m ((c : Thread nD τ).loc main_arg2) else m ((c : Thread nD τ).loc main_arg3) : S128x128.Idx → Elt F .f32) (ix2 k q) := by
  unfold iblk
  rw [View.read_apply]
  show V m c main_v10 _ = _
  rw [Region.V_weights, ← Region.stackWeights_apply]
  refine congrArg (Region.stackWeights (m ((c : Thread nD τ).loc main_arg2)) (m ((c : Thread nD τ).loc main_arg3))) (funext fun a => Fin.ext ?_)
  match a with
  | ⟨0, _⟩ => show win0_2.index t (0 : Fin 3) * 1 + 1 * 0 = b.val; omega
  | ⟨1, _⟩ => show win0_2.index t (1 : Fin 3) * 128 + 1 * k.val = k.val; omega
  | ⟨2, _⟩ => show win0_2.index t (2 : Fin 3) * 128 + 1 * q.val = q.val; omega

/-- The factor block at a point: row `p` is the factor of node `index·5000 + p`. -/
theorem factor_read (c : Dev nD) (t : Fin cfg0.N) (p : Fin 5000) (r : Fin 50000)
    (hr : r.val = win0_3.index t (0 : Fin 2) * 5000 + p.val) (h1 : win0_3.index t (1 : Fin 2) = 0) :
    (iblk m c 3 t : Vec F S5000x1 .f32) (ix2 p (0 : Fin 1)) = Cert.Shared.degNorm (m ((c : Thread nD τ).loc main_arg4)) (ix1 r) := by
  unfold iblk
  rw [View.read_apply]
  show V m c main_v7 _ = _
  rw [Region.V_col, ← Cert.Shared.colReshape_apply (Cert.Shared.degNorm (m ((c : Thread nD τ).loc main_arg4))) r (0 : Fin 1)]
  refine congrArg (Cert.Shared.colReshape (Cert.Shared.degNorm (m ((c : Thread nD τ).loc main_arg4)))) (funext fun a => Fin.ext ?_)
  match a with
  | ⟨0, _⟩ => show win0_3.index t (0 : Fin 2) * 5000 + 1 * p.val = r.val; omega
  | ⟨1, _⟩ => show win0_3.index t (1 : Fin 2) * 1 + 1 * 0 = 0; omega

/-- Where entry (p, q) of the output block at a point sits in the array. -/
theorem out_emb (t : Fin cfg0.N) (p : Fin 5000) (q : Fin 128) (r : Fin 50000)
    (hr : r.val = win0_4.index t (0 : Fin 2) * 5000 + p.val) (h1 : win0_4.index t (1 : Fin 2) = 0) :
    ((cfg0.win 4).blk t).view.emb (ix2 p q) = (ix2 r q : S50000x128.Idx) := by
  funext a
  apply Fin.ext
  match a with
  | ⟨0, _⟩ => show win0_4.index t (0 : Fin 2) * 5000 + 1 * p.val = r.val; omega
  | ⟨1, _⟩ => show win0_4.index t (1 : Fin 2) * 128 + 1 * q.val = q.val; omega

end Cert.KernelIdeal.Blocks

end
-- ==== Proof.BlockCover.lean ====
/-
  The output's ten blocks tile its array.

  Point `t` writes back rows `5000·t … 5000·t + 4999`, all 128 columns. Row `r` of the 50000 × 128 array therefore lies
  in the block of point `r / 5000`, and every point writes back. So if what each point writes back is its block of one
  array `G`, the output array ends holding `G` — for any float values.
-/
import proofs.«149264_j18502719111841_2_alg».proof.Proof.FrameKernelIdeal
import proofs.«149264_j18502719111841_2_alg».proof.Proof.BlockReads
import Idealize.ShloMosaic.Lib.Pipeline.Value

set_option maxRecDepth 16384

noncomputable section

namespace Cert.KernelIdeal.Blocks

open Idealize.ShloMosaic Idealize.ShloMosaic.TcCoe Idealize.SL.Sem
open Idealize.ShloMosaic.Pipeline (Dat)
open Cert.KernelIdeal Cert.KernelIdeal.Gen Cert.KernelIdeal.GenP

/-- An index of the array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v11).slice (win0_4.rect t)).set ↔ _
  rw [View.set_slice_whole, Rect.mem_set_unit]
  exact Iff.rfl

/-- The ten blocks tile the array: row `r` lies in the block of point `r / 5000`. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, -, f40, f41, -⟩ := grid_facts ⟨(i 0).val / 5000, hlt⟩
  refine ⟨⟨(i 0).val / 5000, hlt⟩, flush0_4 _, ?_⟩
  rw [mem_blk]
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    rw [f40]
    show (i 0).val / 5000 * 5000 ≤ (i 0).val ∧ (i 0).val < (i 0).val / 5000 * 5000 + 5000
    omega
  | ⟨1, _⟩ =>
    show win0_4.index ⟨(i 0).val / 5000, hlt⟩ (1 : Fin 2) * 128 ≤ (i 1).val ∧ (i 1).val < win0_4.index ⟨(i 0).val / 5000, hlt⟩ (1 : Fin 2) * 128 + 128
    rw [f41]
    omega

variable {F : FTy → Type} [FloatOps F]
variable (m : (ℓ : Loc nD τ sig) → Buf (Elt F) ℓ)

/-- If every point writes back its block of `G`, the output array ends holding `G`. -/
theorem final_of (c : Dev nD) (G : Buf (Elt F) ((c : Thread nD τ).loc main_v11))
    (hG : ∀ t : Fin cfg0.N, (dats m 0 c).flushed 4 t = ((cfg0.win 4).blk t).view.read (Elt F) G) :
    (dats m 0 c).arrAt 4 cfg0.N = G :=
  (dats m 0 c).arrAt_eq_of_cover 4 G (fun t _ => hG t) cover

end Cert.KernelIdeal.Blocks

end
-- ==== Proof.NodeProjection.lean ====
/-
  The specification both programs meet before their shared tail: the projected, degree-scaled node features.

  The 50000 nodes are 25000 of one kind followed by 25000 of another; each kind has its own 25000 × 128 feature matrix
  and its own 128 × 128 weight matrix. Row `r` of the stacked features is row `r` of the first matrix when `r < 25000`
  and row `r − 25000` of the second otherwise, and it is multiplied by the weight matrix of its own kind; the product's
  row is then scaled by the node's own factor `nrm r`:

      proj r c = (∑ k, feat r k · weight(kind r) k c) · nrm r.

  No law of arithmetic is needed to see that the two programs compute this: both form the same 128 products, sum them
  in one sum and multiply the sum by the same factor on the right; they differ in how the rows are tiled and in which
  layout operations carry the factor to the row.
-/
import Idealize.ShloMosaic.Lib.ValueIdx
import Idealize.ShloMosaic.PureOps.Ideal

noncomputable section

namespace Cert.NodeProj

open Idealize.ShloMosaic Idealize.ShloMosaic.ValueIdx
open scoped BigOperators

abbrev SFeat : Shape := ⟨2, ![25000, 128]⟩
abbrev SWeight : Shape := ⟨2, ![128, 128]⟩
abbrev SNodes : Shape := ⟨2, ![50000, 128]⟩
abbrev SDeg : Shape := ⟨1, ![50000]⟩

/-- Entry `k` of row `r` of the two feature matrices stacked one above the other. -/
def featRow (A0 A1 : SFeat.Idx → EReal) (r : Fin 50000) (k : Fin 128) : EReal :=
  if h : r.val < 25000 then A0 (ix2 (⟨r.val, h⟩ : Fin 25000) k)
  else A1 (ix2 (⟨r.val - 25000, by have := r.isLt; omega⟩ : Fin 25000) k)

/-- The weight matrix of row `r`'s kind. -/
def weightOf (W0 W1 : SWeight.Idx → EReal) (r : Fin 50000) : SWeight.Idx → EReal :=
  if r.val < 25000 then W0 else W1

/-- One entry of the projected, scaled features. -/
def proj (A0 A1 : SFeat.Idx → EReal) (W0 W1 : SWeight.Idx → EReal) (nrm : SDeg.Idx → EReal) (r : Fin 50000) (c : Fin 128) : EReal :=
  (∑ k : Fin 128, featRow A0 A1 r k * weightOf W0 W1 r (ix2 k c)) * nrm (ix1 r)

/-- The whole 50000 × 128 array. -/
def projArr (A0 A1 : SFeat.Idx → EReal) (W0 W1 : SWeight.Idx → EReal) (nrm : SDeg.Idx → EReal) : SNodes.Idx → EReal :=
  fun i => proj A0 A1 W0 W1 nrm ⟨(i 0).val, (i 0).isLt⟩ ⟨(i 1).val, (i 1).isLt⟩

theorem projArr_ix2 (A0 A1 : SFeat.Idx → EReal) (W0 W1 : SWeight.Idx → EReal) (nrm : SDeg.Idx → EReal) (r : Fin 50000) (c : Fin 128) :
    projArr A0 A1 W0 W1 nrm (ix2 r c) = proj A0 A1 W0 W1 nrm r c := rfl

theorem featRow_lt (A0 A1 : SFeat.Idx → EReal) (r : Fin 50000) (k : Fin 128) (h : r.val < 25000) :
    featRow A0 A1 r k = A0 (ix2 (⟨r.val, h⟩ : Fin 25000) k) := dif_pos h

theorem featRow_ge (A0 A1 : SFeat.Idx → EReal) (r : Fin 50000) (k : Fin 128) (h : ¬ r.val < 25000) :
    featRow A0 A1 r k = A1 (ix2 (⟨r.val - 25000, by have := r.isLt; omega⟩ : Fin 25000) k) := dif_neg h

/-- The same, with the second matrix's row named: `r = r' + 25000`. -/
theorem featRow_shift (A0 A1 : SFeat.Idx → EReal) (r : Fin 50000) (k : Fin 128) (r' : Fin 25000) (h : r'.val + 25000 = r.val) :
    featRow A0 A1 r k = A1 (ix2 r' k) := by
  have hge : ¬ r.val < 25000 := by omega
  have e : (⟨r.val - 25000, by have := r.isLt; omega⟩ : Fin 25000) = r' := Fin.ext (Nat.sub_eq_of_eq_add h.symm)
  rw [featRow_ge A0 A1 r k hge, e]

theorem weightOf_lt (W0 W1 : SWeight.Idx → EReal) (r : Fin 50000) (h : r.val < 25000) : weightOf W0 W1 r = W0 := if_pos h

theorem weightOf_ge (W0 W1 : SWeight.Idx → EReal) (r : Fin 50000) (h : ¬ r.val < 25000) : weightOf W0 W1 r = W1 := if_neg h

end Cert.NodeProj

end
-- ==== Proof.BlocksToArray.lean ====
/-
  From the ten blocks to the whole array.

  The grid has ten points; point `t` writes rows `5000·t … 5000·t + 4999` of the 50000 × 128 output. The index maps say
  which blocks the body sees at point `t`:
  * for `t < 5` the first feature matrix's block `t` and the weight stack's plane 0, for `t ≥ 5` the second feature
    matrix's block `t − 5` and plane 1 (the other feature block is a clamped one the body's select discards);
  * always the factor column's block `t`.
  So, with `r = 5000·t + p`, row `p` of what the body picked is row `r` of the stacked features, the plane is the weight
  matrix of `r`'s kind, and the factor is `r`'s: what point `t` writes back is block `t` of the specification's array.
  The ten blocks tile the array (row `r` lies in block `r / 5000`), so the array ends holding the specification.
-/
import proofs.«149264_j18502719111841_2_alg».proof.Proof.FrameKernelIdeal
import proofs.«149264_j18502719111841_2_alg».proof.Proof.BlockEntry
import proofs.«149264_j18502719111841_2_alg».proof.Proof.RegionInputs
import proofs.«149264_j18502719111841_2_alg».proof.Proof.BlockReads
import proofs.«149264_j18502719111841_2_alg».proof.Proof.BlockCover
import proofs.«149264_j18502719111841_2_alg».proof.Proof.NodeProjection
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.NodeProj
open scoped BigOperators

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The specification's array of the launch contents on core `c`. -/
def nodeFeatures (c : Dev nD) : SNodes.Idx → EReal :=
  projArr (m ((c : Thread nD τ).loc main_arg0)) (m ((c : Thread nD τ).loc main_arg1))
    (m ((c : Thread nD τ).loc main_arg2)) (m ((c : Thread nD τ).loc main_arg3))
    (Cert.Shared.degNorm (m ((c : Thread nD τ).loc main_arg4)))

/-! ## What a point writes back, and the whole array -/

/-- What point `t` writes back is block `t` of the specification's array. -/
theorem flushed_eq (c : Dev nD) (t : Fin cfg0.N) :
    (dats m 0 c).flushed 4 t = ((cfg0.win 4).blk t).view.read (Elt Ideal) (nodeFeatures m c) := by
  obtain ⟨f00, f01, f10, f11, f20a, f20b, f21, f22, f30, f31, f40, f41, fcmp⟩ := grid_facts t
  show (cfg0.win 4).cut (grid0.coords t) ((dats m 0 c).after 4 t) = _
  rw [after0_4]
  unfold out0_4
  rw [View.canon_unit_zero hz2]
  simp only [View.ld_unit_zero (S := S5000x128) hz2, View.ld_unit_zero (S := S1x128x128) hz3, View.ld_unit_zero (S := S5000x1) hz2]
  funext j
  obtain ⟨p, q, rfl⟩ : ∃ (p : Fin 5000) (q : Fin 128), j = ix2 p q := ⟨j 0, j 1, eq_ix2 j⟩
  have ht10 : t.val < 10 := by have h := t.isLt; have hN : cfg0.N = 10 := N_0; omega
  have hp : p.val < 5000 := p.isLt
  have hrlt : t.val * 5000 + p.val < 50000 := by omega
  rw [View.read_apply, out_emb t p q ⟨t.val * 5000 + p.val, hrlt⟩ (by rw [f40]) f41]
  unfold nodeFeatures
  rw [projArr_ix2]
  refine (Block.pay_entry (grid0.coords t) (iblk m c 0 t) (iblk m c 1 t) (iblk m c 2 t) (iblk m c 3 t) p q).trans ?_
  unfold proj
  rw [fcmp, factor_read m c t p ⟨t.val * 5000 + p.val, hrlt⟩ (by rw [f30]) f31]
  refine congrArg (fun s => s * Cert.Shared.degNorm (m ((c : Thread nD τ).loc main_arg4)) (ix1 (⟨t.val * 5000 + p.val, hrlt⟩ : Fin 50000)))
    (Finset.sum_congr rfl fun k _ => ?_)
  by_cases ht : t.val < 5
  · have hr : t.val * 5000 + p.val < 25000 := by omega
    rw [if_pos ht, select_one, feat0_read m c t p k ⟨t.val * 5000 + p.val, hr⟩ (by rw [f00 ht]) f01,
      weight_read m c t k q (0 : Fin 2) (f20a ht) f21 f22, featRow_lt _ _ _ _ hr, weightOf_lt _ _ _ hr,
      if_pos (show ((0 : Fin 2) : Nat) = 0 from rfl)]
  · have ht5 : 5 ≤ t.val := Nat.le_of_not_lt ht
    have hge : ¬ (t.val * 5000 + p.val < 25000) := by omega
    have h10 := f10 ht5
    have hr' : win0_1.index t (0 : Fin 2) * 5000 + p.val < 25000 := by omega
    rw [if_neg ht, select_zero, feat1_read m c t p k ⟨win0_1.index t (0 : Fin 2) * 5000 + p.val, hr'⟩ rfl f11,
      weight_read m c t k q (1 : Fin 2) (f20b ht5) f21 f22,
      featRow_shift _ _ (⟨t.val * 5000 + p.val, hrlt⟩ : Fin 50000) k ⟨win0_1.index t (0 : Fin 2) * 5000 + p.val, hr'⟩
        (by show win0_1.index t (0 : Fin 2) * 5000 + p.val + 25000 = t.val * 5000 + p.val; omega),
      weightOf_ge _ _ _ hge, if_neg (show ¬ ((1 : Fin 2) : Nat) = 0 by decide)]

/-- After the region the output array holds the specification's array: the ten blocks tile it. -/
theorem final (c : Dev nD) : (dats m 0 c).arrAt 4 cfg0.N = nodeFeatures m c :=
  final_of m c (nodeFeatures m c) (flushed_eq m c)

end Cert.KernelIdeal.Blocks

end
-- ==== Proof.KernelRun.lean ====
/-
  The idealized kernel's run, read.

  After the region the host gathers rows of the region's output array, sums them at the row nodes and scales by the
  column of factors it computed before the region: the shared message passing, applied to whatever the output array
  holds. The frame run says what it holds — the specification's array (the ten blocks tile it) — and that the column
  is still what the region found. So every weakly fair execution ends with the result at the shared message passing of
  the specification's array, and the arguments unchanged.
-/
import proofs.«149264_j18502719111841_2_alg».proof.Proof.FrameKernelIdeal
import proofs.«149264_j18502719111841_2_alg».proof.Proof.SharedTail
import proofs.«149264_j18502719111841_2_alg».proof.Proof.RegionInputs
import proofs.«149264_j18502719111841_2_alg».proof.Proof.BlocksToArray
import Idealize.ShloMosaic.Lib.StableHlo.Run
import Idealize.ShloMosaic.Lib.Pipeline.Value

noncomputable section

namespace Cert.KernelIdeal.Run

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.GenP

section AnyFloats

variable {F : FTy → Type} [FloatOps F]
variable (m : (ℓ : Loc nD τ sig) → Buf (Elt F) ℓ) (ρ : Dev nD → PrngReg)

/-- The host operations after the region, from any buffer contents `W`: the shared message passing of the output
    array, the column, and the two index arrays as `W` has them. -/
theorem tail_after (W : Valuation τ sig (Elt F)) :
    StableHlo.after (List.flatten [hostOps1]) W (Proc.devRef .tc main_v23)
      = Cert.Shared.tail (W (Proc.devRef .tc main_v11)) (W (Proc.devRef .tc main_v7)) (W (Proc.devRef .tc main_arg4)) (W (Proc.devRef .tc main_arg5)) := by
  unfold Cert.Shared.tail
  simp only [hostOps1, List.flatten_cons, List.flatten_nil, List.append_nil, List.cons_append, List.nil_append]
  after_results

/-- What the result buffer holds after the run, in terms of the region's output array. -/
theorem tail_eq (c : Dev nD) :
    Pipeline.afterTail₀ cfgs (dats m) 0 (V0 m) [hostOps1] c main_v23
      = Cert.Shared.tail ((dats m 0 c).arrAt 4 cfg0.N) (V m c main_v7)
          (m ((c : Thread nD τ).loc main_arg4)) (m ((c : Thread nD τ).loc main_arg5)) := by
  unfold Pipeline.afterTail₀
  refine (tail_after _).trans ?_
  have e11 := Pipeline.withArrays_arr spec0 launch0.win.arr_inj c (V0 m c) (fun w => (dats m 0 c).arrAt w cfg0.N) 4
  have e7 := (Pipeline.withArrays_arr spec0 launch0.win.arr_inj c (V0 m c) (fun w => (dats m 0 c).arrAt w cfg0.N) 3).trans
    (((dats m 0 c).arrAt_in 3 rfl _).trans (A_eq m c 3))
  have e4 := (Pipeline.withArrays_of_ne spec0 c (V0 m c) (fun w => (dats m 0 c).arrAt w cfg0.N) main_arg4 (by decide)).trans (V_main_arg4 m c)
  have e5 := (Pipeline.withArrays_of_ne spec0 c (V0 m c) (fun w => (dats m 0 c).arrAt w cfg0.N) main_arg5 (by decide)).trans (V_main_arg5 m c)
  exact congr (congr (congr (congrArg Cert.Shared.tail e11) e7) e4) e5

/-- The frame run, with the result buffer read: the shared message passing of the region's output array. -/
theorem run_tail : θ_run defs (onTc (τ := τ) (main (F := F))) ⟨m, fun _ => 0, ρ⟩ fun r => ∀ c : Dev nD,
      r.2.mem ((c.tc : Thread nD τ).loc main_v23)
        = Cert.Shared.tail ((dats m 0 c).arrAt 4 cfg0.N) (V m c main_v7)
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v23 (Pipeline.mem_restRefs_of main_v23 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end AnyFloats

/-- At the extended reals: the result is the shared message passing of the specification's array, with the column of
    factors spelt as a reshape. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = Cert.Shared.tail (Blocks.nodeFeatures m c) (Cert.Shared.colReshape (Cert.Shared.degNorm (m ((c : Thread nD τ).loc main_arg4))))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by rw [Blocks.final m c, Region.V_col m c]), (h c).2⟩) (run_tail m ρ)

end Cert.KernelIdeal.Run

end
-- ==== Proof.RefStages.lean ====
/-
  The reference program, stage by stage, in the words of the specification.

  The reference multiplies each feature matrix by its own weight matrix (two 25000 × 128 × 128 products), stacks the two
  results, scales row `r` by the node's factor — carried to the row by two broadcasts — and then passes messages along
  the edges. Entry (r, c) of the stack is the first product's entry (r, c) when `r < 25000` and the second product's
  entry (r − 25000, c) otherwise; either way it is the sum over `k` of the stacked features' entry (r, k) times the
  entry (k, c) of the weight matrix of `r`'s kind. So the scaled stack is the specification's `projArr`, and the rest of
  the program is the shared message passing applied to it.
-/
import proofs.«149264_j18502719111841_2_alg».proof.Proof.Gen.ReferenceIdeal.Read
import proofs.«149264_j18502719111841_2_alg».proof.Proof.NodeProjection
import proofs.«149264_j18502719111841_2_alg».proof.Proof.SharedTail
import Idealize.ShloMosaic.Lib.Pipeline.Value
import Idealize.ShloMosaic.Lib.ValueIdx

noncomputable section

namespace Cert.ReferenceIdeal.Stages

open Idealize.ShloMosaic Idealize.ShloMosaic.ValueIdx Cert.ReferenceIdeal Cert.ReferenceIdeal.Gen Cert.ReferenceIdeal.Read Cert.NodeProj
open scoped BigOperators

variable (x0 x1 : (⟨S25000x128, .f32⟩ : BufTy).Contents (Elt Ideal)) (x2 x3 : (⟨S128x128, .f32⟩ : BufTy).Contents (Elt Ideal))
  (x4 x5 : (⟨S800000, .i32⟩ : BufTy).Contents (Elt Ideal))

/-- The two products stacked, at entry (r, c): row `r` of the stacked features times column `c` of its kind's weights. -/
theorem stacked_apply (r : Fin 50000) (c : Fin 128) :
    val_main_v2 (F := Ideal) x0 x1 x2 x3 (ix2 r c) = ∑ k : Fin 128, featRow x0 x1 r k * weightOf x2 x3 r (ix2 k c) := by
  unfold val_main_v2
  by_cases h : r.val < 25000
  · rw [concatenate_pair_apply_left (t := S50000x128) (s₁ := S25000x128) (s₂ := S25000x128) (0 : Fin 2) _ _ concatenates_S25000x128_S25000x128_S50000x128_d0 (ix2 r c) rfl (ix2 (⟨r.val, h⟩ : Fin 25000) c)
      (fun b => by
        match b with
        | ⟨0, _⟩ => rfl
        | ⟨1, _⟩ => rfl), val_main_v0_apply]
    refine Finset.sum_congr rfl fun k _ => ?_
    rw [featRow_lt x0 x1 r k h, weightOf_lt x2 x3 r h]
    have el : lidx_main_v0 (ix2 (⟨r.val, h⟩ : Fin 25000) c) k = ix2 (⟨r.val, h⟩ : Fin 25000) k := funext fun a => by
      match a with
      | ⟨0, _⟩ => rfl
      | ⟨1, _⟩ => rfl
    have er : ridx_main_v0 (ix2 (⟨r.val, h⟩ : Fin 25000) c) k = ix2 k c := funext fun a => by
      match a with
      | ⟨0, _⟩ => rfl
      | ⟨1, _⟩ => rfl
    rw [el, er]
  · obtain ⟨r', hr'⟩ : ∃ r' : Fin 25000, r'.val + 25000 = r.val :=
      ⟨⟨r.val - 25000, by have := r.isLt; omega⟩, by show r.val - 25000 + 25000 = r.val; omega⟩
    rw [concatenate_pair_apply_right (t := S50000x128) (s₁ := S25000x128) (s₂ := S25000x128) (0 : Fin 2) _ _ concatenates_S25000x128_S25000x128_S50000x128_d0 (ix2 r c) rfl rfl (ix2 r' c)
      (fun b hb => by
        match b with
        | ⟨0, _⟩ => exact absurd rfl hb
        | ⟨1, _⟩ => rfl)
      (by show r'.val + 25000 = r.val; exact hr'), val_main_v1_apply]
    refine Finset.sum_congr rfl fun k _ => ?_
    rw [featRow_shift x0 x1 r k r' hr', weightOf_ge x2 x3 r h]
    have el : lidx_main_v1 (ix2 r' c) k = ix2 r' k := funext fun a => by
      match a with
      | ⟨0, _⟩ => rfl
      | ⟨1, _⟩ => rfl
    have er : ridx_main_v1 (ix2 r' c) k = ix2 k c := funext fun a => by
      match a with
      | ⟨0, _⟩ => rfl
      | ⟨1, _⟩ => rfl
    rw [el, er]

/-- The scaled stack is the specification's array, with the reference's own factors. -/
theorem scaled_eq : val_main_v12 (F := Ideal) x0 x1 x2 x3 x4 = projArr x0 x1 x2 x3 (val_main_v9 (F := Ideal) x4) := by
  funext i
  obtain ⟨r, c, rfl⟩ : ∃ (r : Fin 50000) (c : Fin 128), i = ix2 r c := ⟨i 0, i 1, eq_ix2 i⟩
  rw [val_main_v12_apply, val_main_v11_apply, val_main_v10_apply, projArr_ix2, stacked_apply]
  have hn : idx_main_v10 (idx_main_v11 (ix2 r c)) = ix1 r := funext fun a => by
    match a with
    | ⟨0, _⟩ => rfl
  rw [hn]
  rfl

section AnyFloats

variable {F : FTy → Type} [FloatOps F]
variable (y0 y1 : (⟨S25000x128, .f32⟩ : BufTy).Contents (Elt F)) (y2 y3 : (⟨S128x128, .f32⟩ : BufTy).Contents (Elt F))
  (y4 y5 : (⟨S800000, .i32⟩ : BufTy).Contents (Elt F))

/-- The reference's factors are the shared ones, -/
theorem norm_eq : val_main_v9 (F := F) y4 = Cert.Shared.degNorm y4 := rfl

/-- its column of factors is their broadcast, -/
theorem col_eq : val_main_v23 (F := F) y4 = Cert.Shared.colBroadcast (Cert.Shared.degNorm y4) := rfl

/-- and after the scaled stack it is the shared message passing. -/
theorem result_tail : val_main_v25 (F := F) y0 y1 y2 y3 y4 y5
    = Cert.Shared.tail (val_main_v12 (F := F) y0 y1 y2 y3 y4) (val_main_v23 (F := F) y4) y4 y5 := rfl

end AnyFloats

/-- The reference's result: the shared message passing of the specification's array. -/
theorem result_eq : val_main_v25 (F := Ideal) x0 x1 x2 x3 x4 x5
    = Cert.Shared.tail (projArr x0 x1 x2 x3 (Cert.Shared.degNorm x4)) (Cert.Shared.colBroadcast (Cert.Shared.degNorm x4)) x4 x5 := by
  rw [result_tail (F := Ideal), scaled_eq, norm_eq (F := Ideal), col_eq (F := Ideal)]

end Cert.ReferenceIdeal.Stages

end
-- ==== Proof.lean ====
/-
  A two-type graph layer: per-type linear projection, symmetric degree normalisation, one round of message passing.

  Both programs compute, for 25000 + 25000 nodes with 128 features each and 800000 edges (rows, cols):

      factor r   = (max 1 (number of edges whose row node is r)) ^ (−1/2)
      P r c      = (∑ k, feat r k · weight(kind r) k c) · factor r
      out r c    = (∑ over edges e with rows e = r of P (cols e) c) · factor r

  where `feat` is the two feature matrices stacked and `weight(kind r)` the weight matrix of `r`'s type.

  The kernel program computes `P` in one grid of ten points, 5000 rows each: at a point it picks the block of the
  right feature matrix by comparing the grid coordinate with 5, takes the right plane of the stacked weights through
  the index map, multiplies into a zero accumulator and scales by the block of the factor column. The reference
  computes two whole products, stacks them and scales by the broadcast factors. On the extended reals these are the
  same sums of the same products times the same factor, entry by entry; no law of arithmetic beyond reading each
  layout operation at an index is used, and the finiteness of the inputs is never needed.

  Everything after `P` (wrapping negative column ids, the gather, the scatter-add into zeros, the last scaling) and the
  computation of the factors are the same host operations in both programs; they are carried as one function of `P`
  and never opened. The two programs spell the factor column differently (a reshape; a broadcast along its own axis):
  the same array.

  The idealization rewrote nothing, so the kernel's sanctioned idealization claim is trivial; the three frames are
  the frame runs of the two kernels and the reference's run with its result dropped.
-/
import proofs.«149264_j18502719111841_2_alg».proof.Defs
import proofs.«149264_j18502719111841_2_alg».proof.Proof.Gen.Kernel
import proofs.«149264_j18502719111841_2_alg».proof.Proof.Gen.KernelIdeal
import proofs.«149264_j18502719111841_2_alg».proof.Proof.Gen.ReferenceIdeal
import proofs.«149264_j18502719111841_2_alg».proof.Proof.Gen.Pre_finite_inputs
import proofs.«149264_j18502719111841_2_alg».proof.Proof.Gen.ReferenceIdeal.Run
import proofs.«149264_j18502719111841_2_alg».proof.Proof.Gen.ReferenceIdeal.Read
import proofs.«149264_j18502719111841_2_alg».proof.Proof.FrameKernel
import proofs.«149264_j18502719111841_2_alg».proof.Proof.FrameKernelIdeal
import proofs.«149264_j18502719111841_2_alg».proof.Proof.KernelRun
import proofs.«149264_j18502719111841_2_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the shared message passing of the specification's
    array: the kernel by its frame run read block by block, the reference by its run read stage by stage; the factor
    column's two spellings are one array. -/
theorem algebraic : Cert.algebraic_KernelIdeal_ReferenceIdeal := by
  intro m ρ m' ρ' _ hagree
  refine ⟨fun c => Cert.Shared.tail (Cert.KernelIdeal.Blocks.nodeFeatures m c)
      (Cert.Shared.colReshape (Cert.Shared.degNorm (m ((c.tc : Thread Cert.KernelIdeal.nD Cert.KernelIdeal.τ).loc Cert.KernelIdeal.main_arg4))))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  beta_reduce
  rw [a0, a1, a2, a3, a4, a5]
  refine (Cert.ReferenceIdeal.Read.val_main_v25_eq (F := Ideal) _ _ _ _ _ _).trans ?_
  rw [Cert.ReferenceIdeal.Stages.result_eq, Cert.Shared.colReshape_eq_colBroadcast]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
